-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S16384x512 : Shape := ⟨2, ![16384, 512]⟩
abbrev S16384x128 : Shape := ⟨2, ![16384, 128]⟩
abbrev S256x2048 : Shape := ⟨2, ![256, 2048]⟩
abbrev S512x2048 : Shape := ⟨2, ![512, 2048]⟩
abbrev S2048 : Shape := ⟨1, ![2048]⟩
abbrev S128x2048 : Shape := ⟨2, ![128, 2048]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_
  bcast_S_S16384x128 : S_.BroadcastsInDim S16384x128 (![] : Fin 0 → Fin S16384x128.rank)
  reducesTo_S16384x128_S_d0_1 : S16384x128.ReducesTo [0, 1] S_
  bcast_S_S256x2048 : S_.BroadcastsInDim S256x2048 (![] : Fin 0 → Fin S256x2048.rank)
  reducesTo_S256x2048_S_d0_1 : S256x2048.ReducesTo [0, 1] S_
  bcast_S_S512x2048 : S_.BroadcastsInDim S512x2048 (![] : Fin 0 → Fin S512x2048.rank)
  reducesTo_S512x2048_S_d0_1 : S512x2048.ReducesTo [0, 1] S_
  bcast_S_S2048 : S_.BroadcastsInDim S2048 (![] : Fin 0 → Fin S2048.rank)
  reducesTo_S2048_S_d0 : S2048.ReducesTo [0] S_
  bcast_S_S128x2048 : S_.BroadcastsInDim S128x2048 (![] : Fin 0 → Fin S128x2048.rank)
  reducesTo_S128x2048_S_d0_1 : S128x2048.ReducesTo [0, 1] S_

variable [Facts]

def fn_part2 {F : FTy → Type} [FloatOps F] (main_arg7 : FVec F S2048 .f32) (main_arg8 : FVec F S128x2048 .f32) (main_arg9 : FVec F S128x2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S128x2048 .f32 := Host.absf main_arg8
  let main_cst_14 : FVec F S_ .f32 := constant S_ .f32 0x7F800000#32
  let main_v40 : FVec F S128x2048 .f32 := broadcastInDim S128x2048 ![] bcast_S_S128x2048 main_cst_14
  let main_v41 : IVec S128x2048 1 := cmpf .olt main_v39 main_v40
  let main_c_15 : IVec S_ 1 := constantI S_ 1 1#1
  let main_v42 : IVec S_ 1 := (fun x v => Host.reduce IntOp.andi x v reducesTo_S128x2048_S_d0_1 h_S_) main_v41 main_c_15
  let main_v43 : IVec S_ 1 := andi main_v38 main_v42
  let main_v44 : FVec F S128x2048 .f32 := Host.absf main_arg9
  let main_cst_16 : FVec F S_ .f32 := constant S_ .f32 0x7F800000#32
  let main_v45 : FVec F S128x2048 .f32 := broadcastInDim S128x2048 ![] bcast_S_S128x2048 main_cst_16
  let main_v46 : IVec S128x2048 1 := cmpf .olt main_v44 main_v45
  let main_c_17 : IVec S_ 1 := constantI S_ 1 1#1
  let main_v47 : IVec S_ 1 := (fun x v => Host.reduce IntOp.andi x v reducesTo_S128x2048_S_d0_1 h_S_) main_v46 main_c_17
  let main_v48 : IVec S_ 1 := andi main_v43 main_v47
  main_v48

def fn_part1 {F : FTy → Type} [FloatOps F] (main_arg4 : FVec F S16384x128 .f32) (main_arg5 : FVec F S256x2048 .f32) (main_arg6 : FVec F S512x2048 .f32) (main_arg7 : FVec F S2048 .f32) (main_arg8 : FVec F S128x2048 .f32) (main_arg9 : FVec F S128x2048 .f32) (main_v13 : IVec S_ 1) (main_v16 : IVec S16384x128 1) : IVec S_ 1 :=
  let main_c_5 : IVec S_ 1 := constantI S_ 1 1#1
  let main_v17 : IVec S_ 1 := (fun x v => Host.reduce IntOp.andi x v reducesTo_S16384x128_S_d0_1 h_S_) main_v16 main_c_5
  let main_v18 : IVec S_ 1 := andi main_v13 main_v17
  let main_v19 : FVec F S16384x128 .f32 := Host.absf main_arg4
  let main_cst_6 : FVec F S_ .f32 := constant S_ .f32 0x7F800000#32
  let main_v20 : FVec F S16384x128 .f32 := broadcastInDim S16384x128 ![] bcast_S_S16384x128 main_cst_6
  let main_v21 : IVec S16384x128 1 := cmpf .olt main_v19 main_v20
  let main_c_7 : IVec S_ 1 := constantI S_ 1 1#1
  let main_v22 : IVec S_ 1 := (fun x v => Host.reduce IntOp.andi x v reducesTo_S16384x128_S_d0_1 h_S_) main_v21 main_c_7
  let main_v23 : IVec S_ 1 := andi main_v18 main_v22
  let main_v24 : FVec F S256x2048 .f32 := Host.absf main_arg5
  let main_cst_8 : FVec F S_ .f32 := constant S_ .f32 0x7F800000#32
  let main_v25 : FVec F S256x2048 .f32 := broadcastInDim S256x2048 ![] bcast_S_S256x2048 main_cst_8
  let main_v26 : IVec S256x2048 1 := cmpf .olt main_v24 main_v25
  let main_c_9 : IVec S_ 1 := constantI S_ 1 1#1
  let main_v27 : IVec S_ 1 := (fun x v => Host.reduce IntOp.andi x v reducesTo_S256x2048_S_d0_1 h_S_) main_v26 main_c_9
  let main_v28 : IVec S_ 1 := andi main_v23 main_v27
  let main_v29 : FVec F S512x2048 .f32 := Host.absf main_arg6
  let main_cst_10 : FVec F S_ .f32 := constant S_ .f32 0x7F800000#32
  let main_v30 : FVec F S512x2048 .f32 := broadcastInDim S512x2048 ![] bcast_S_S512x2048 main_cst_10
  let main_v31 : IVec S512x2048 1 := cmpf .olt main_v29 main_v30
  let main_c_11 : IVec S_ 1 := constantI S_ 1 1#1
  let main_v32 : IVec S_ 1 := (fun x v => Host.reduce IntOp.andi x v reducesTo_S512x2048_S_d0_1 h_S_) main_v31 main_c_11
  let main_v33 : IVec S_ 1 := andi main_v28 main_v32
  fn_part2 (F := F) main_arg7 main_arg8 main_arg9 main_v33

def fn {F : FTy → Type} [FloatOps F] (main_arg0 : FVec F S16384x256 .f32) (main_arg1 : FVec F S16384x512 .f32) (main_arg2 : FVec F S16384x512 .f32) (main_arg3 : FVec F S16384x128 .f32) (main_arg4 : FVec F S16384x128 .f32) (main_arg5 : FVec F S256x2048 .f32) (main_arg6 : FVec F S512x2048 .f32) (main_arg7 : FVec F S2048 .f32) (main_arg8 : FVec F S128x2048 .f32) (main_arg9 : FVec F S128x2048 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S16384x128 .f32 := Host.absf main_arg3
  let main_cst_4 : FVec F S_ .f32 := constant S_ .f32 0x7F800000#32
  let main_v15 : FVec F S16384x128 .f32 := broadcastInDim S16384x128 ![] bcast_S_S16384x128 main_cst_4
  let main_v16 : IVec S16384x128 1 := cmpf .olt main_v14 main_v15
  fn_part1 (F := F) main_arg4 main_arg5 main_arg6 main_arg7 main_arg8 main_arg9 main_v13 main_v16
-- ==== Kernel.lean ====
abbrev S16384x256 : Shape := ⟨2, ![16384, 256]⟩
abbrev S16384x512 : Shape := ⟨2, ![16384, 512]⟩
abbrev S16384x128 : Shape := ⟨2, ![16384, 128]⟩
abbrev S256x2048 : Shape := ⟨2, ![256, 2048]⟩
abbrev S512x2048 : Shape := ⟨2, ![512, 2048]⟩
abbrev S2048 : Shape := ⟨1, ![2048]⟩
abbrev S128x2048 : Shape := ⟨2, ![128, 2048]⟩
abbrev S1x2048 : Shape := ⟨2, ![1, 2048]⟩
abbrev S512x256 : Shape := ⟨2, ![512, 256]⟩
abbrev S512x512 : Shape := ⟨2, ![512, 512]⟩

abbrev nBuf : Space → Nat
  | .hbm => 18
  | .vmem => 16
  | .smem => 0
  | _ => 0

abbrev bufTy : (tb : Table) → Fin (tcTables nBuf tb) → BufTy
  | .hbm, ⟨0, _⟩ => ⟨S16384x256, .f32⟩
  | .hbm, ⟨1, _⟩ => ⟨S16384x512, .f32⟩
  | .hbm, ⟨2, _⟩ => ⟨S16384x512, .f32⟩
  | .hbm, ⟨3, _⟩ => ⟨S16384x128, .f32⟩
  | .hbm, ⟨4, _⟩ => ⟨S16384x128, .f32⟩
  | .hbm, ⟨5, _⟩ => ⟨S256x2048, .f32⟩
  | .hbm, ⟨6, _⟩ => ⟨S512x2048, .f32⟩
  | .hbm, ⟨7, _⟩ => ⟨S2048, .f32⟩
  | .hbm, ⟨8, _⟩ => ⟨S128x2048, .f32⟩
  | .hbm, ⟨9, _⟩ => ⟨S128x2048, .f32⟩
  | .hbm, ⟨10, _⟩ => ⟨S16384x256, .f32⟩
  | .hbm, ⟨11, _⟩ => ⟨S256x2048, .f32⟩
  | .hbm, ⟨12, _⟩ => ⟨S256x2048, .bf16⟩
  | .hbm, ⟨13, _⟩ => ⟨S512x2048, .bf16⟩
  | .hbm, ⟨14, _⟩ => ⟨S256x2048, .bf16⟩
  | .hbm, ⟨15, _⟩ => ⟨S1x2048, .f32⟩
  | .hbm, ⟨16, _⟩ => ⟨S16384x512, .f32⟩
  | .hbm, ⟨17, _⟩ => ⟨S16384x512, .f32⟩
  | .local _ .vmem, ⟨0, _⟩ => ⟨S512x256, .f32⟩
  | .local _ .vmem, ⟨1, _⟩ => ⟨S512x256, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x256, .f32⟩
  | .local _ .vmem, ⟨7, _⟩ => ⟨S512x256, .f32⟩
  | .local _ .vmem, ⟨8, _⟩ => ⟨S256x2048, .bf16⟩
  | .local _ .vmem, ⟨9, _⟩ => ⟨S512x2048, .bf16⟩
  | .local _ .vmem, ⟨10, _⟩ => ⟨S1x2048, .f32⟩
  | .local _ .vmem, ⟨11, _⟩ => ⟨S256x2048, .bf16⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  concatenates_S16384x128_S16384x128_S16384x256_d1 : Shape.Concatenates [S16384x128, S16384x128] S16384x256 1
  concatenates_S128x2048_S128x2048_S256x2048_d0 : Shape.Concatenates [S128x2048, S128x2048] S256x2048 0
  bitsLt_bf16_f32 : FTy.bits .bf16 < FTy.bits .f32
  shapeCasts_S2048_S1x2048 : S2048.ShapeCasts S1x2048
  inb_S512x256_S512x256_0_0 : ∀ a, (![0, 0] : Fin 2 → Nat) a + S512x256.size a ≤ S512x256.size a
  h_S512x256 : 0 < S512x256.numel
  inb_S512x512_S512x512_0_0 : ∀ a, (![0, 0] : Fin 2 → Nat) a + S512x512.size a ≤ S512x512.size a
  h_S512x512 : 0 < S512x512.numel
  shapeCasts_S512x256_S512x256 : S512x256.ShapeCasts S512x256
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  slices_S512x2048_o0_0_S512x512 : S512x2048.Slices ![0, 0] S512x512
  slices_S512x2048_o0_512_S512x512 : S512x2048.Slices ![0, 512] S512x512
  slices_S512x2048_o0_1024_S512x512 : S512x2048.Slices ![0, 1024] S512x512
  slices_S512x2048_o0_1536_S512x512 : S512x2048.Slices ![0, 1536] S512x512
  dot_S512x256_S256x2048_S512x2048_1_0_0_1_n_n_wf : DotDims.WF S512x256 S256x2048 S512x2048 [1] [0] [0] [1] [] []
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S16384x256.size a
  hwx0_0 : ∀ i : grid0.Coords, EltTy.bits .f32 = 32 ∨ (Rect.block (s := S16384x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .f32 = 32 ∨ (Rect.block (s := S16384x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S16384x512.size a
  hwx0_2 : ∀ i : grid0.Coords, EltTy.bits .f32 = 32 ∨ (Rect.block (s := S16384x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S16384x256.size a
  hwx0_3 : ∀ i : grid0.Coords, EltTy.bits .f32 = 32 ∨ (Rect.block (s := S16384x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S256x2048.size a
  hwx0_4 : ∀ i : grid0.Coords, EltTy.bits .bf16 = 32 ∨ (Rect.block (s := S256x2048) S256x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S512x2048.size a
  hwx0_5 : ∀ i : grid0.Coords, EltTy.bits .bf16 = 32 ∨ (Rect.block (s := S512x2048) S512x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S256x2048.size a
  hwx0_7 : ∀ i : grid0.Coords, EltTy.bits .bf16 = 32 ∨ (Rect.block (s := S256x2048) S256x2048.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S16384x512.size a
  hwx0_8 : ∀ i : grid0.Coords, EltTy.bits .f32 = 32 ∨ (Rect.block (s := S16384x512) S512x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S16384x512.size a
  hwx0_9 : ∀ i : grid0.Coords, EltTy.bits .f32 = 32 ∨ (Rect.block (s := S16384x512) S512x512.size (cc0_transform_9 i) (hinb0_9 i)).WholeWords (EltTy.packing .f32)

variable [Facts₀]

def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S512x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S256x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6_0) S512x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_1) S512x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384x256 : Shape := ⟨2, ![16384, 256]⟩
abbrev S16384x512 : Shape := ⟨2, ![16384, 512]⟩
abbrev S16384x128 : Shape := ⟨2, ![16384, 128]⟩
abbrev S256x2048 : Shape := ⟨2, ![256, 2048]⟩
abbrev S512x2048 : Shape := ⟨2, ![512, 2048]⟩
abbrev S2048 : Shape := ⟨1, ![2048]⟩
abbrev S128x2048 : Shape := ⟨2, ![128, 2048]⟩
abbrev S16384x2048 : Shape := ⟨2, ![16384, 2048]⟩
abbrev S1x2048 : Shape := ⟨2, ![1, 2048]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x512, .f32⟩
  | .hbm, ⟨2, _⟩ => ⟨S16384x512, .f32⟩
  | .hbm, ⟨3, _⟩ => ⟨S16384x128, .f32⟩
  | .hbm, ⟨4, _⟩ => ⟨S16384x128, .f32⟩
  | .hbm, ⟨5, _⟩ => ⟨S256x2048, .f32⟩
  | .hbm, ⟨6, _⟩ => ⟨S512x2048, .f32⟩
  | .hbm, ⟨7, _⟩ => ⟨S2048, .f32⟩
  | .hbm, ⟨8, _⟩ => ⟨S128x2048, .f32⟩
  | .hbm, ⟨9, _⟩ => ⟨S128x2048, .f32⟩
  | .hbm, ⟨10, _⟩ => ⟨S16384x2048, .f32⟩
  | .hbm, ⟨11, _⟩ => ⟨S16384x2048, .f32⟩
  | .hbm, ⟨12, _⟩ => ⟨S1x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S_, .f32⟩
  | .hbm, ⟨24, _⟩ => ⟨S16384x512, .f32⟩
  | .hbm, ⟨25, _⟩ => ⟨S16384x512, .f32⟩
  | .hbm, ⟨26, _⟩ => ⟨S_, .f32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S_, .f32⟩
  | .hbm, ⟨33, _⟩ => ⟨S16384x512, .f32⟩
  | .hbm, ⟨34, _⟩ => ⟨S16384x512, .f32⟩
  | .hbm, ⟨35, _⟩ => ⟨S_, .f32⟩
  | .hbm, ⟨36, _⟩ => ⟨S16384x512, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S_, .f32⟩
  | .hbm, ⟨42, _⟩ => ⟨S16384x512, .f32⟩
  | .hbm, ⟨43, _⟩ => ⟨S16384x512, .f32⟩
  | .hbm, ⟨44, _⟩ => ⟨S_, .f32⟩
  | .hbm, ⟨45, _⟩ => ⟨S16384x512, .f32⟩
  | .hbm, ⟨46, _⟩ => ⟨S16384x512, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S16384x512, .f32⟩
  | .hbm, ⟨52, _⟩ => ⟨S16384x512, .f32⟩
  | .hbm, ⟨53, _⟩ => ⟨S16384x512, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  slices_S16384x2048_S16384x512_0_0 : S16384x2048.Slices ![0, 0] S16384x512
  bcast_S_S16384x512 : S_.BroadcastsInDim S16384x512 (![] : Fin 0 → Fin S16384x512.rank)
  slices_S16384x2048_S16384x512_0_512 : S16384x2048.Slices ![0, 512] S16384x512
  slices_S16384x2048_S16384x512_0_1024 : S16384x2048.Slices ![0, 1024] S16384x512
  slices_S16384x2048_S16384x512_0_1536 : S16384x2048.Slices ![0, 1536] S16384x512
  dot_S16384x256_S256x2048_S16384x2048_1_0_0_1_n_n_wf : DotDims.WF S16384x256 S256x2048 S16384x2048 [1] [0] [0] [1] [] []
  dot_S16384x512_S512x2048_S16384x2048_1_0_0_1_n_n_wf : DotDims.WF S16384x512 S512x2048 S16384x2048 [1] [0] [0] [1] [] []
  dot_S16384x128_S128x2048_S16384x2048_1_0_0_1_n_n_wf : DotDims.WF S16384x128 S128x2048 S16384x2048 [1] [0] [0] [1] [] []

variable [Facts₀]

def dot_S16384x256_S256x2048_S16384x2048_1_0_0_1_n_n : DotDims S16384x256 S256x2048 S16384x2048 where
  lhsContracting := [1]
  rhsContracting := [0]
  lhsNonContracting := [0]
  rhsNonContracting := [1]
  lhsBatch := []
  rhsBatch := []
  wf := dot_S16384x256_S256x2048_S16384x2048_1_0_0_1_n_n_wf
def dot_S16384x512_S512x2048_S16384x2048_1_0_0_1_n_n : DotDims S16384x512 S512x2048 S16384x2048 where
  lhsContracting := [1]
  rhsContracting := [0]
  lhsNonContracting := [0]
  rhsNonContracting := [1]
  lhsBatch := []
  rhsBatch := []
  wf := dot_S16384x512_S512x2048_S16384x2048_1_0_0_1_n_n_wf
def dot_S16384x128_S128x2048_S16384x2048_1_0_0_1_n_n : DotDims S16384x128 S128x2048 S16384x2048 where
  lhsContracting := [1]
  rhsContracting := [0]
  lhsNonContracting := [0]
  rhsNonContracting := [1]
  lhsBatch := []
  rhsBatch := []
  wf := dot_S16384x128_S128x2048_S16384x2048_1_0_0_1_n_n_wf

class Facts : Prop extends Facts₀ where

variable [Facts]
-- ==== Proof.Cell.lean ====
/-
  One step of an LSTM cell over a batch of 16384 rows, on the extended reals.

  A row of pre-activations has 2048 entries: four consecutive groups of 512, for the input gate, the forget gate,
  the output gate and the candidate. With σ the logistic function, entry j of the new cell state is
      σ(pre[512 + j]) · c[j] + σ(pre[j]) · tanh(pre[1536 + j]),
  and entry j of the new hidden state is tanh(σ(pre[1024 + j]) · (new cell state)[j]).

  The pre-activation is written two ways. Summand by summand, it is
      x·Wx + (h·Wh + b) + s·Ws + t·Wt,
  four contractions (over 256, 512, 128 and 128 coordinates) and a bias. Fused, it is
      x·Wx + h·Wh + [s | t]·[Ws ; Wt] + b,
  where s and t are laid side by side into one row of 256 entries, Ws is stacked on Wt into 256 rows, and the bias is
  added last. A contraction over the 256 coordinates of [s | t] against [Ws ; Wt] is the contraction of s against Ws over
  the first 128 plus that of t against Wt over the last 128; and addition on the extended reals is commutative and
  associative (with -∞ absorbing). So the two forms agree for all extended-real entries, finite or not.
-/
import Idealize.ShloMosaic.PureOps.Ideal
import Idealize.ShloMosaic.Lib.ValueIdx
import Mathlib.Algebra.BigOperators.Fin

noncomputable section

open scoped BigOperators

namespace Cert.Cell

open Idealize.ShloMosaic Idealize.ShloMosaic.ValueIdx

/-! ## The four gate columns of a pre-activation row -/

/-- Column of the input gate's entry j. -/
abbrev colI (j : Fin 512) : Fin 2048 := ⟨j.val, by omega⟩
/-- Column of the forget gate's entry j. -/
abbrev colF (j : Fin 512) : Fin 2048 := ⟨j.val + 512, by omega⟩
/-- Column of the output gate's entry j. -/
abbrev colO (j : Fin 512) : Fin 2048 := ⟨j.val + 1024, by omega⟩
/-- Column of the candidate's entry j. -/
abbrev colG (j : Fin 512) : Fin 2048 := ⟨j.val + 1536, by omega⟩

/-! ## The cell, given the pre-activations -/

/-- Entry (r, j) of the new cell state: forget gate times the old state plus input gate times candidate. -/
def cellAt (pre : Fin 16384 → Fin 2048 → EReal) (c : (⟨2, ![16384, 512]⟩ : Shape).Idx → EReal)
    (r : Fin 16384) (j : Fin 512) : EReal :=
  Ideal.logistic (pre r (colF j)) * c (ix2 r j) + Ideal.logistic (pre r (colI j)) * Ideal.tanh (pre r (colG j))

/-- Entry (r, j) of the new hidden state: tanh of output gate times the new cell state. -/
def hiddenAt (pre : Fin 16384 → Fin 2048 → EReal) (c : (⟨2, ![16384, 512]⟩ : Shape).Idx → EReal)
    (r : Fin 16384) (j : Fin 512) : EReal :=
  Ideal.tanh (Ideal.logistic (pre r (colO j)) * cellAt pre c r j)

/-- The new cell state as an array. -/
def cellArr (pre : Fin 16384 → Fin 2048 → EReal) (c : (⟨2, ![16384, 512]⟩ : Shape).Idx → EReal) :
    (⟨2, ![16384, 512]⟩ : Shape).Idx → EReal := fun i => cellAt pre c (i 0) (i 1)

/-- The new hidden state as an array. -/
def hiddenArr (pre : Fin 16384 → Fin 2048 → EReal) (c : (⟨2, ![16384, 512]⟩ : Shape).Idx → EReal) :
    (⟨2, ![16384, 512]⟩ : Shape).Idx → EReal := fun i => hiddenAt pre c (i 0) (i 1)

/-! ## The pre-activation, two ways -/

/-- Summand by summand: x·Wx + (h·Wh + b) + s·Ws + t·Wt at row r, column q. -/
def preSummed (x : (⟨2, ![16384, 256]⟩ : Shape).Idx → EReal) (h : (⟨2, ![16384, 512]⟩ : Shape).Idx → EReal)
    (s t : (⟨2, ![16384, 128]⟩ : Shape).Idx → EReal) (wx : (⟨2, ![256, 2048]⟩ : Shape).Idx → EReal)
    (wh : (⟨2, ![512, 2048]⟩ : Shape).Idx → EReal) (b : (⟨1, ![2048]⟩ : Shape).Idx → EReal)
    (ws wt : (⟨2, ![128, 2048]⟩ : Shape).Idx → EReal) (r : Fin 16384) (q : Fin 2048) : EReal :=
  ((∑ k : Fin 256, x (ix2 r k) * wx (ix2 k q)) + ((∑ k : Fin 512, h (ix2 r k) * wh (ix2 k q)) + b (ix1 q))
      + ∑ k : Fin 128, s (ix2 r k) * ws (ix2 k q))
    + ∑ k : Fin 128, t (ix2 r k) * wt (ix2 k q)

/-- Fused: x·Wx + h·Wh + st·Wst + b, with st of width 256, Wst of height 256 and the bias a one-row matrix. -/
def preFused (x st : (⟨2, ![16384, 256]⟩ : Shape).Idx → EReal) (h : (⟨2, ![16384, 512]⟩ : Shape).Idx → EReal)
    (wx wst : (⟨2, ![256, 2048]⟩ : Shape).Idx → EReal) (wh : (⟨2, ![512, 2048]⟩ : Shape).Idx → EReal)
    (b2 : (⟨2, ![1, 2048]⟩ : Shape).Idx → EReal) (r : Fin 16384) (q : Fin 2048) : EReal :=
  ((∑ k : Fin 256, x (ix2 r k) * wx (ix2 k q)) + (∑ k : Fin 512, h (ix2 r k) * wh (ix2 k q))
      + ∑ k : Fin 256, st (ix2 r k) * wst (ix2 k q))
    + b2 (ix2 (0 : Fin 1) q)

/-- A sum over 256 coordinates is the sum over the first 128 plus the sum over the last 128. -/
theorem sum_halves (f : Fin 256 → EReal) :
    ∑ k : Fin 256, f k = (∑ k : Fin 128, f (Fin.castAdd 128 k)) + ∑ k : Fin 128, f (Fin.natAdd 128 k) :=
  Fin.sum_univ_add (a := 128) (b := 128) f

/-- The two forms of the pre-activation agree when st is s beside t, Wst is Ws over Wt, and the one-row bias is b. -/
theorem preFused_eq_preSummed (x st : (⟨2, ![16384, 256]⟩ : Shape).Idx → EReal)
    (h : (⟨2, ![16384, 512]⟩ : Shape).Idx → EReal) (s t : (⟨2, ![16384, 128]⟩ : Shape).Idx → EReal)
    (wx wst : (⟨2, ![256, 2048]⟩ : Shape).Idx → EReal) (wh : (⟨2, ![512, 2048]⟩ : Shape).Idx → EReal)
    (b : (⟨1, ![2048]⟩ : Shape).Idx → EReal) (b2 : (⟨2, ![1, 2048]⟩ : Shape).Idx → EReal)
    (ws wt : (⟨2, ![128, 2048]⟩ : Shape).Idx → EReal)
    (hs : ∀ (r : Fin 16384) (k : Fin 128), st (ix2 r (Fin.castAdd 128 k)) = s (ix2 r k))
    (ht : ∀ (r : Fin 16384) (k : Fin 128), st (ix2 r (Fin.natAdd 128 k)) = t (ix2 r k))
    (hws : ∀ (k : Fin 128) (q : Fin 2048), wst (ix2 (Fin.castAdd 128 k) q) = ws (ix2 k q))
    (hwt : ∀ (k : Fin 128) (q : Fin 2048), wst (ix2 (Fin.natAdd 128 k) q) = wt (ix2 k q))
    (hb : ∀ q : Fin 2048, b2 (ix2 (0 : Fin 1) q) = b (ix1 q))
    (r : Fin 16384) (q : Fin 2048) :
    preFused x st h wx wst wh b2 r q = preSummed x h s t wx wh b ws wt r q := by
  unfold preFused preSummed
  rw [sum_halves (fun k => st (ix2 r k) * wst (ix2 k q)), hb q]
  simp only [hs, ht, hws, hwt]
  abel

/-! ## The logistic function as the reference spells it -/

/-- The single-precision pattern of 1.0 denotes the number one. -/
theorem ofBits_one : Ideal.ofBits .f32 0x3F800000#32 = 1 := by
  have e : ((8388608 : ℝ) : EReal) * (((2 ^ 23 : ℝ)⁻¹ : ℝ) : EReal) = 1 := by
    rw [← EReal.coe_mul, ← EReal.coe_one]
    exact congrArg _ (by norm_num)
  simpa [Ideal.ofBits, Ideal.ieee] using e

/-- 1 / (1 + e^(-x)), written with the pattern of 1.0 for both ones, is the logistic function at x. -/
theorem logistic_spelt (x : EReal) :
    Ideal.div (Ideal.ofBits .f32 0x3F800000#32) (Ideal.ofBits .f32 0x3F800000#32 + Ideal.exp (-x)) = Ideal.logistic x := by
  rw [ofBits_one]
  rfl

end Cert.Cell

end
-- ==== Proof.LibPlainDot.lean ====
/-
  A plain matrix product read at an index, on the extended reals.

  For dimension numbers that contract the left operand's second axis against the right operand's first — an
  [M, K] array times a [K, P] array — the product into a zero accumulator, read at row `p` and column `q`, is
  `Σ k, l (p, k) · r (k, q)` over the K contraction coordinates. The contraction's index set has one axis; the sum is
  re-indexed through that axis's coordinate. The two facts about the free axes (the left index keeps the row, the right
  index keeps the column) are taken as hypotheses, since for given dimension numbers they hold by computation.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The matrix product into the zero accumulator at (p, q) is the sum over the contraction coordinate of the left
    operand at (p, k) times the right operand at (k, q). -/
theorem matmul_zero_apply {M K P : ℕ} {φ₁ φ₂ : FTy}
    (D : DotDims ⟨2, ![M, K]⟩ ⟨2, ![K, P]⟩ ⟨2, ![M, P]⟩)
    (hlc : D.lhsContracting = [1]) (hrc : D.rhsContracting = [0])
    (hl0 : ∀ (j : (⟨2, ![M, P]⟩ : Shape).Idx) (c : D.contr.Idx), (D.lhsIdx j c 0).val = (j 0).val)
    (hr1 : ∀ (j : (⟨2, ![M, P]⟩ : Shape).Idx) (c : D.contr.Idx), (D.rhsIdx j c 1).val = (j 1).val)
    (hrank : D.contr.rank = 1) (hsize : D.contr.size ⟨0, by omega⟩ = K)
    (prec : Option ContractPrecision)
    (l : FVec Ideal ⟨2, ![M, K]⟩ φ₁) (r : FVec Ideal ⟨2, ![K, P]⟩ φ₂) (p : Fin M) (q : Fin P) :
    FloatOps.matmul D prec l r (constant ⟨2, ![M, P]⟩ .f32 0x00000000#32) (ix2 p q)
      = ∑ k : Fin K, l (ix2 p k) * r (ix2 k q) := by
  rw [Ideal.matmul_constant_zero_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 k q := funext fun a => Fin.ext (by
    match a with
    | ⟨0, _⟩ => exact (D.rhsIdx_val_of_single hrc _ _).trans hk
    | ⟨1, _⟩ => exact hr1 _ _)
  rw [el, er]

end Cert.LibPlainDot

end
-- ==== Proof.PreactBlock.lean ====
/-
  The pre-activation the kernel body computes for one block of 512 batch rows, read at row p and column q.

  The body holds a [512, 256] block of x, a [512, 512] block of h, a [512, 256] block of [s | t], the whole weight
  matrices Wx [256, 2048], Wh [512, 2048] and [Ws ; Wt] [256, 2048], and the bias as one row [1, 2048]. It forms three
  matrix products, each into a zero accumulator, adds them left to right and then adds the bias row to every row. On the
  extended reals a change of float format is the identity and a product into zero is the plain sum over the contraction
  coordinate, so entry (p, q) is
      (Σ_k x(p,k)·Wx(k,q) + Σ_k h(p,k)·Wh(k,q)) + Σ_k st(p,k)·Wst(k,q) + bias(0,q).
-/
import proofs.«111865_j31585189495421_2_alg».proof.Proof.Gen.KernelIdeal.Skeleton
import proofs.«111865_j31585189495421_2_alg».proof.Proof.LibPlainDot
import Idealize.ShloMosaic.Lib.ValueLayout
import Idealize.ShloMosaic.Lib.Pipeline.Value

noncomputable section

open scoped BigOperators

namespace Cert.KernelIdeal.Preact

open Cert.KernelIdeal Cert.KernelIdeal.Gen Idealize.ShloMosaic Idealize.ShloMosaic.ValueIdx

/-- A [512, 256] block times a [256, 2048] matrix into zero, at (p, q): the sum over the 256 contraction coordinates. -/
theorem dot256_apply (l : FVec Ideal S512x256 .bf16) (r : FVec Ideal S256x2048 .bf16) (p : Fin 512) (q : Fin 2048) :
    matmul dot_S512x256_S256x2048_S512x2048_1_0_0_1_n_n none l r (constant (F := Ideal) S512x2048 .f32 0x00000000#32) (ix2 p q)
      = ∑ k : Fin 256, l (ix2 p k) * r (ix2 k q) :=
  Cert.LibPlainDot.matmul_zero_apply dot_S512x256_S256x2048_S512x2048_1_0_0_1_n_n rfl rfl
    (fun j c => by
      unfold DotDims.lhsIdx
      rw [dif_neg (show ¬(0 : Fin S512x256.rank) ∈ dot_S512x256_S256x2048_S512x2048_1_0_0_1_n_n.lhsBatch by decide),
        dif_pos (show (0 : Fin S512x256.rank) ∈ dot_S512x256_S256x2048_S512x2048_1_0_0_1_n_n.lhsNonContracting by decide)]
      rfl)
    (fun j c => by
      unfold DotDims.rhsIdx
      rw [dif_neg (show ¬(1 : Fin S256x2048.rank) ∈ dot_S512x256_S256x2048_S512x2048_1_0_0_1_n_n.rhsBatch by decide),
        dif_pos (show (1 : Fin S256x2048.rank) ∈ dot_S512x256_S256x2048_S512x2048_1_0_0_1_n_n.rhsNonContracting by decide)]
      rfl)
    rfl rfl none l r p q

/-- A [512, 512] block times a [512, 2048] matrix into zero, at (p, q): the sum over the 512 contraction coordinates. -/
theorem dot512_apply (l : FVec Ideal S512x512 .bf16) (r : FVec Ideal S512x2048 .bf16) (p : Fin 512) (q : Fin 2048) :
    matmul dot_S512x512_S512x2048_S512x2048_1_0_0_1_n_n none l r (constant (F := Ideal) S512x2048 .f32 0x00000000#32) (ix2 p q)
      = ∑ k : Fin 512, l (ix2 p k) * r (ix2 k q) :=
  Cert.LibPlainDot.matmul_zero_apply dot_S512x512_S512x2048_S512x2048_1_0_0_1_n_n rfl rfl
    (fun j c => by
      unfold DotDims.lhsIdx
      rw [dif_neg (show ¬(0 : Fin S512x512.rank) ∈ dot_S512x512_S512x2048_S512x2048_1_0_0_1_n_n.lhsBatch by decide),
        dif_pos (show (0 : Fin S512x512.rank) ∈ dot_S512x512_S512x2048_S512x2048_1_0_0_1_n_n.lhsNonContracting by decide)]
      rfl)
    (fun j c => by
      unfold DotDims.rhsIdx
      rw [dif_neg (show ¬(1 : Fin S512x2048.rank) ∈ dot_S512x512_S512x2048_S512x2048_1_0_0_1_n_n.rhsBatch by decide),
        dif_pos (show (1 : Fin S512x2048.rank) ∈ dot_S512x512_S512x2048_S512x2048_1_0_0_1_n_n.rhsNonContracting by decide)]
      rfl)
    rfl rfl none l r p q

/-- The body's pre-activation at (p, q): the three contractions added left to right, then the bias row's entry q. -/
theorem pay1_apply (P0 : Vec Ideal S512x256 .f32) (P1 : Vec Ideal S512x512 .f32) (P2 : Vec Ideal S512x256 .f32)
    (P3 : Vec Ideal S256x2048 .bf16) (P4 : Vec Ideal S512x2048 .bf16) (P5 : Vec Ideal S256x2048 .bf16)
    (P6 : Vec Ideal S1x2048 .f32) (p : Fin 512) (q : Fin 2048) :
    k0_pay1 (F := Ideal) P0 P1 P2 P3 P4 P5 P6 (ix2 p q)
      = ((∑ k : Fin 256, P0 (ix2 p k) * P3 (ix2 k q)) + (∑ k : Fin 512, P1 (ix2 p k) * P4 (ix2 k q))
          + ∑ k : Fin 256, P2 (ix2 p k) * P5 (ix2 k q))
        + P6 (ix2 (0 : Fin 1) q) := by
  unfold k0_pay1
  show (addf (addf (addf
        (matmul dot_S512x256_S256x2048_S512x2048_1_0_0_1_n_n none (truncf .bf16 P0 bitsLt_bf16_f32)
          (shapeCast S256x2048 P3 shapeCasts_S256x2048_S256x2048) (constant (F := Ideal) S512x2048 .f32 0x00000000#32))
        (matmul dot_S512x512_S512x2048_S512x2048_1_0_0_1_n_n none (truncf .bf16 P1 bitsLt_bf16_f32)
          (shapeCast S512x2048 P4 shapeCasts_S512x2048_S512x2048) (constant (F := Ideal) S512x2048 .f32 0x00000000#32)))
        (matmul dot_S512x256_S256x2048_S512x2048_1_0_0_1_n_n none
          (truncf .bf16 (shapeCast S512x256 P2 shapeCasts_S512x256_S512x256) bitsLt_bf16_f32)
          (shapeCast S256x2048 P5 shapeCasts_S256x2048_S256x2048) (constant (F := Ideal) S512x2048 .f32 0x00000000#32)))
        (broadcastTo S512x2048 (shapeCast S1x2048 P6 shapeCasts_S1x2048_S1x2048) broadcasts_S1x2048_S512x2048)) (ix2 p q) = _
  rw [shapeCast_self P3, shapeCast_self P4, shapeCast_self P5, shapeCast_self P2, shapeCast_self P6]
  rw [addf_apply, addf_apply, addf_apply, dot256_apply, dot512_apply, dot256_apply, broadcastTo_1b_ab_apply]
  rfl

end Cert.KernelIdeal.Preact

end
-- ==== Proof.BlockPoint.lean ====
/-
  What one grid point leaves in its two output blocks, entry by entry.

  Grid point b works on batch rows b·512 … b·512 + 511. Its x, h, c and [s | t] blocks are those rows of the whole arrays,
  and it sees the weight matrices and the bias row whole. The body slices its [512, 2048] pre-activation into the four
  gate groups at column offsets 0, 512, 1024 and 1536, so entry (p, j) of the block it writes for the new hidden state
  (and for the new cell state) is the cell's formula at row b·512 + p and entry j, over the fused pre-activation of the
  whole arrays. Everything here is stated over arbitrary arrays and blocks related by those row equations.
-/
import proofs.«111865_j31585189495421_2_alg».proof.Proof.Gen.KernelIdeal.Value
import proofs.«111865_j31585189495421_2_alg».proof.Proof.Cell
import proofs.«111865_j31585189495421_2_alg».proof.Proof.PreactBlock

noncomputable section

open scoped BigOperators

namespace Cert.KernelIdeal.BlockPoint

open Cert.KernelIdeal Cert.KernelIdeal.Gen Cert.KernelIdeal.Value Idealize.ShloMosaic Idealize.ShloMosaic.ValueIdx

/-- The row of the whole batch under row p of block b. -/
abbrev rowOf (b : ℕ) (hb : b < 32) (p : Fin 512) : Fin 16384 := ⟨b * 512 + p.val, by omega⟩

section
variable (X ST : S16384x256.Idx → EReal) (H C : S16384x512.Idx → EReal) (WX WST : S256x2048.Idx → EReal)
  (WH : S512x2048.Idx → EReal) (B2 : S1x2048.Idx → EReal)
  (P0 : Vec Ideal S512x256 .f32) (P1 : Vec Ideal S512x512 .f32) (P2 : Vec Ideal S512x256 .f32)
  (P3 : Vec Ideal S256x2048 .bf16) (P4 : Vec Ideal S512x2048 .bf16) (P5 : Vec Ideal S256x2048 .bf16)
  (P6 : Vec Ideal S1x2048 .f32) (P7 : Vec Ideal S512x512 .f32)
  (b : ℕ) (hb : b < 32)
  (h0 : ∀ (p : Fin 512) (k : Fin 256), P0 (ix2 p k) = X (ix2 (rowOf b hb p) k))
  (h1 : ∀ (p : Fin 512) (k : Fin 512), P1 (ix2 p k) = H (ix2 (rowOf b hb p) k))
  (h2 : ∀ (p : Fin 512) (k : Fin 256), P2 (ix2 p k) = ST (ix2 (rowOf b hb p) k))
  (h3 : ∀ i : S256x2048.Idx, P3 i = WX i) (h4 : ∀ i : S512x2048.Idx, P4 i = WH i)
  (h5 : ∀ i : S256x2048.Idx, P5 i = WST i) (h6 : ∀ i : S1x2048.Idx, P6 i = B2 i)
  (h7 : ∀ (p : Fin 512) (j : Fin 512), P7 (ix2 p j) = C (ix2 (rowOf b hb p) j))

include h0 h1 h2 h3 h4 h5 h6 in
/-- The block's pre-activation at (p, q) is the fused pre-activation of the whole arrays at row b·512 + p. -/
theorem pre_point (p : Fin 512) (q : Fin 2048) :
    k0_pay1 (F := Ideal) P0 P1 P2 P3 P4 P5 P6 (ix2 p q) = Cell.preFused X ST H WX WST WH B2 (rowOf b hb p) q := by
  rw [Preact.pay1_apply]
  unfold Cell.preFused
  simp only [h0, h1, h2, h3, h4, h5, h6]

include h0 h1 h2 h3 h4 h5 h6 h7 in
/-- Entry (p, j) of the block written for the new cell state. -/
theorem cell_point (p j : Fin 512) :
    E9 (F := Ideal) P0 P1 P2 P3 P4 P5 P6 P7 (ix2 p j)
      = Cell.cellAt (Cell.preFused X ST H WX WST WH B2) C (rowOf b hb p) j := by
  have eF : ix9_0 (ix2 p j) = ix2 p (Cell.colF j) := funext fun a => by
    match a with | ⟨0, _⟩ => rfl | ⟨1, _⟩ => rfl
  have eC : ix9_1 (ix2 p j) = ix2 p j := funext fun a => by
    match a with | ⟨0, _⟩ => rfl | ⟨1, _⟩ => rfl
  have eI : ix9_2 (ix2 p j) = ix2 p (Cell.colI j) := funext fun a => by
    match a with | ⟨0, _⟩ => rfl | ⟨1, _⟩ => rfl
  have eG : ix9_3 (ix2 p j) = ix2 p (Cell.colG j) := funext fun a => by
    match a with | ⟨0, _⟩ => rfl | ⟨1, _⟩ => rfl
  show FloatOps.addf (FloatOps.mulf (FloatOps.logistic (k0_pay1 (F := Ideal) P0 P1 P2 P3 P4 P5 P6 (ix9_0 (ix2 p j)))) (P7 (ix9_1 (ix2 p j))))
      (FloatOps.mulf (FloatOps.logistic (k0_pay1 (F := Ideal) P0 P1 P2 P3 P4 P5 P6 (ix9_2 (ix2 p j))))
        (FloatOps.tanh (k0_pay1 (F := Ideal) P0 P1 P2 P3 P4 P5 P6 (ix9_3 (ix2 p j))))) = _
  rw [eF, eC, eI, eG, h7]
  simp only [pre_point X ST H WX WST WH B2 P0 P1 P2 P3 P4 P5 P6 b hb h0 h1 h2 h3 h4 h5 h6 p]
  rfl

include h0 h1 h2 h3 h4 h5 h6 h7 in
/-- Entry (p, j) of the block written for the new hidden state. -/
theorem hidden_point (p j : Fin 512) :
    E8 (F := Ideal) P0 P1 P2 P3 P4 P5 P6 P7 (ix2 p j)
      = Cell.hiddenAt (Cell.preFused X ST H WX WST WH B2) C (rowOf b hb p) j := by
  have eO : ix8_0 (ix2 p j) = ix2 p (Cell.colO j) := funext fun a => by
    match a with | ⟨0, _⟩ => rfl | ⟨1, _⟩ => rfl
  have eF : ix8_1 (ix2 p j) = ix2 p (Cell.colF j) := funext fun a => by
    match a with | ⟨0, _⟩ => rfl | ⟨1, _⟩ => rfl
  have eC : ix8_2 (ix2 p j) = ix2 p j := funext fun a => by
    match a with | ⟨0, _⟩ => rfl | ⟨1, _⟩ => rfl
  have eI : ix8_3 (ix2 p j) = ix2 p (Cell.colI j) := funext fun a => by
    match a with | ⟨0, _⟩ => rfl | ⟨1, _⟩ => rfl
  have eG : ix8_4 (ix2 p j) = ix2 p (Cell.colG j) := funext fun a => by
    match a with | ⟨0, _⟩ => rfl | ⟨1, _⟩ => rfl
  show FloatOps.tanh (FloatOps.mulf (FloatOps.logistic (k0_pay1 (F := Ideal) P0 P1 P2 P3 P4 P5 P6 (ix8_0 (ix2 p j))))
      (FloatOps.addf (FloatOps.mulf (FloatOps.logistic (k0_pay1 (F := Ideal) P0 P1 P2 P3 P4 P5 P6 (ix8_1 (ix2 p j)))) (P7 (ix8_2 (ix2 p j))))
        (FloatOps.mulf (FloatOps.logistic (k0_pay1 (F := Ideal) P0 P1 P2 P3 P4 P5 P6 (ix8_3 (ix2 p j))))
          (FloatOps.tanh (k0_pay1 (F := Ideal) P0 P1 P2 P3 P4 P5 P6 (ix8_4 (ix2 p j))))))) = _
  rw [eO, eF, eC, eI, eG, h7]
  simp only [pre_point X ST H WX WST WH B2 P0 P1 P2 P3 P4 P5 P6 b hb h0 h1 h2 h3 h4 h5 h6 p]
  rfl

end

end Cert.KernelIdeal.BlockPoint

end
-- ==== Proof.KernelArray.lean ====
/-
  The kernel's two result arrays, whole.

  The grid has 32 points; point t holds rows t·512 … t·512 + 511 of x, h, c and [s | t], sees the weight matrices and the bias
  row whole, and writes rows t·512 … t·512 + 511 of both results. Block by block, what a point writes is the cell's
  formula over the fused pre-activation of the arrays the region finds; the 32 blocks tile the 16384 rows (row r lies in the
  block of point r / 512), so after the run each result array is that formula at every index.
-/
import proofs.«111865_j31585189495421_2_alg».proof.Proof.Gen.KernelIdeal.Value
import proofs.«111865_j31585189495421_2_alg».proof.Proof.BlockPoint

noncomputable section

namespace Cert.KernelIdeal.Whole

open Cert.KernelIdeal Cert.KernelIdeal.Gen Cert.KernelIdeal.Value Idealize.ShloMosaic Idealize.ShloMosaic.TcCoe
  Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The fused pre-activation over the arrays the region finds. -/
abbrev preV (c : Dev nD) : Fin 16384 → Fin 2048 → EReal :=
  Cell.preFused (V m c main_arg0) (V m c main_v0) (V m c main_arg1) (V m c main_v2) (V m c main_v4) (V m c main_v3)
    (V m c main_v5)

/-! ## The index maps, decided over the 32 grid points: a row window's block index is (t, 0), a whole window's (0, 0) -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)

/-! ## The input windows' blocks, read off the arrays the region finds -/

/-- Point t's block of x: rows t·512 + p. -/
theorem blk_x (c : Dev nD) (t : Fin cfg0.N) (ht : t.val < 32) (p : Fin 512) (k : Fin 256) :
    iblk m c 0 t (ix2 p k) = V m c main_arg0 (ix2 (BlockPoint.rowOf t.val ht p) k) := by
  obtain ⟨e0, e1⟩ := idx0 t
  show V m c main_arg0 (((cfg0.win 0).blk t).view.emb (ix2 p k)) = _
  have h : ((cfg0.win 0).blk t).view.emb (ix2 p k) = ix2 (BlockPoint.rowOf t.val ht p) k := by
    funext a; apply Fin.ext
    match a with
    | ⟨0, _⟩ => show win0_0.index t (0 : Fin 2) * 512 + 1 * p.val = t.val * 512 + p.val; omega
    | ⟨1, _⟩ => show win0_0.index t (1 : Fin 2) * 256 + 1 * k.val = k.val; omega
  rw [h]

/-- Point t's block of h: rows t·512 + p. -/
theorem blk_h (c : Dev nD) (t : Fin cfg0.N) (ht : t.val < 32) (p : Fin 512) (k : Fin 512) :
    iblk m c 1 t (ix2 p k) = V m c main_arg1 (ix2 (BlockPoint.rowOf t.val ht p) k) := by
  obtain ⟨e0, e1⟩ := idx1 t
  show V m c main_arg1 (((cfg0.win 1).blk t).view.emb (ix2 p k)) = _
  have h : ((cfg0.win 1).blk t).view.emb (ix2 p k) = ix2 (BlockPoint.rowOf t.val ht p) k := by
    funext a; apply Fin.ext
    match a with
    | ⟨0, _⟩ => show win0_1.index t (0 : Fin 2) * 512 + 1 * p.val = t.val * 512 + p.val; omega
    | ⟨1, _⟩ => show win0_1.index t (1 : Fin 2) * 512 + 1 * k.val = k.val; omega
  rw [h]

/-- Point t's block of c: rows t·512 + p. -/
theorem blk_c (c : Dev nD) (t : Fin cfg0.N) (ht : t.val < 32) (p : Fin 512) (k : Fin 512) :
    iblk m c 2 t (ix2 p k) = V m c main_arg2 (ix2 (BlockPoint.rowOf t.val ht p) k) := by
  obtain ⟨e0, e1⟩ := idx2 t
  show V m c main_arg2 (((cfg0.win 2).blk t).view.emb (ix2 p k)) = _
  have h : ((cfg0.win 2).blk t).view.emb (ix2 p k) = ix2 (BlockPoint.rowOf t.val ht p) k := by
    funext a; apply Fin.ext
    match a with
    | ⟨0, _⟩ => show win0_2.index t (0 : Fin 2) * 512 + 1 * p.val = t.val * 512 + p.val; omega
    | ⟨1, _⟩ => show win0_2.index t (1 : Fin 2) * 512 + 1 * k.val = k.val; omega
  rw [h]

/-- Point t's block of [s | t]: rows t·512 + p. -/
theorem blk_st (c : Dev nD) (t : Fin cfg0.N) (ht : t.val < 32) (p : Fin 512) (k : Fin 256) :
    iblk m c 3 t (ix2 p k) = V m c main_v0 (ix2 (BlockPoint.rowOf t.val ht p) k) := by
  obtain ⟨e0, e1⟩ := idx3 t
  show V m c main_v0 (((cfg0.win 3).blk t).view.emb (ix2 p k)) = _
  have h : ((cfg0.win 3).blk t).view.emb (ix2 p k) = ix2 (BlockPoint.rowOf t.val ht p) k := by
    funext a; apply Fin.ext
    match a with
    | ⟨0, _⟩ => show win0_3.index t (0 : Fin 2) * 512 + 1 * p.val = t.val * 512 + p.val; omega
    | ⟨1, _⟩ => show win0_3.index t (1 : Fin 2) * 256 + 1 * k.val = k.val; omega
  rw [h]

/-- Every point sees Wx whole. -/
theorem blk_wx (c : Dev nD) (t : Fin cfg0.N) (i : S256x2048.Idx) : iblk m c 4 t i = V m c main_v2 i := by
  obtain ⟨e0, e1⟩ := idx4 t
  show V m c main_v2 (((cfg0.win 4).blk t).view.emb i) = _
  have h : ((cfg0.win 4).blk t).view.emb i = i := by
    funext a; apply Fin.ext
    match a with
    | ⟨0, _⟩ => show win0_4.index t (0 : Fin 2) * 256 + 1 * (i 0).val = (i 0).val; omega
    | ⟨1, _⟩ => show win0_4.index t (1 : Fin 2) * 2048 + 1 * (i 1).val = (i 1).val; omega
  rw [h]

/-- Every point sees Wh whole. -/
theorem blk_wh (c : Dev nD) (t : Fin cfg0.N) (i : S512x2048.Idx) : iblk m c 5 t i = V m c main_v3 i := by
  obtain ⟨e0, e1⟩ := idx5 t
  show V m c main_v3 (((cfg0.win 5).blk t).view.emb i) = _
  have h : ((cfg0.win 5).blk t).view.emb i = i := by
    funext a; apply Fin.ext
    match a with
    | ⟨0, _⟩ => show win0_5.index t (0 : Fin 2) * 512 + 1 * (i 0).val = (i 0).val; omega
    | ⟨1, _⟩ => show win0_5.index t (1 : Fin 2) * 2048 + 1 * (i 1).val = (i 1).val; omega
  rw [h]

/-- Every point sees the bias row whole. -/
theorem blk_b2 (c : Dev nD) (t : Fin cfg0.N) (i : S1x2048.Idx) : iblk m c 6 t i = V m c main_v5 i := by
  obtain ⟨e0, e1⟩ := idx6 t
  show V m c main_v5 (((cfg0.win 6).blk t).view.emb i) = _
  have h : ((cfg0.win 6).blk t).view.emb i = i := by
    funext a; apply Fin.ext
    match a with
    | ⟨0, _⟩ => show win0_6.index t (0 : Fin 2) * 1 + 1 * (i 0).val = (i 0).val; omega
    | ⟨1, _⟩ => show win0_6.index t (1 : Fin 2) * 2048 + 1 * (i 1).val = (i 1).val; omega
  rw [h]

/-- Every point sees [Ws ; Wt] whole. -/
theorem blk_wst (c : Dev nD) (t : Fin cfg0.N) (i : S256x2048.Idx) : iblk m c 7 t i = V m c main_v4 i := by
  obtain ⟨e0, e1⟩ := idx7 t
  show V m c main_v4 (((cfg0.win 7).blk t).view.emb i) = _
  have h : ((cfg0.win 7).blk t).view.emb i = i := by
    funext a; apply Fin.ext
    match a with
    | ⟨0, _⟩ => show win0_7.index t (0 : Fin 2) * 256 + 1 * (i 0).val = (i 0).val; omega
    | ⟨1, _⟩ => show win0_7.index t (1 : Fin 2) * 2048 + 1 * (i 1).val = (i 1).val; omega
  rw [h]

/-! ## The new hidden state (output window 8) -/

/-- WHAT POINT t WRITES BACK to the new hidden state: rows t·512 … t·512 + 511 of the cell's array over the staged arrays. -/
theorem flushed8_eq (c : Dev nD) (t : Fin cfg0.N) :
    (dats m 0 c).flushed 8 t
      = ((cfg0.win 8).blk t).view.read (Elt Ideal) (Cell.hiddenArr (preV m c) (V m c main_arg2)) := by
  have ht : t.val < 32 := by have h := t.isLt; have hN : cfg0.N = 32 := N_0; omega
  obtain ⟨e0, e1⟩ := idx8 t
  rw [Value.flushed8]
  unfold out0_8
  simp only [View.ld_unit_zero (S := S512x256) hz, View.ld_unit_zero (S := S512x512) hz,
    View.ld_unit_zero (S := S256x2048) hz, View.ld_unit_zero (S := S512x2048) hz, View.ld_unit_zero (S := S1x2048) hz]
  funext y
  obtain ⟨p, j, rfl⟩ : ∃ (p : Fin 512) (j : Fin 512), y = ix2 p j := ⟨y 0, y 1, eq_ix2 y⟩
  show View.canon ([⟨r0_1, k0_pay3 (iblk m c 0 t) (iblk m c 1 t) (iblk m c 3 t) (iblk m c 4 t) (iblk m c 5 t) (iblk m c 7 t)
        (iblk m c 6 t) (iblk m c 2 t)⟩] : List (View.Piece (Elt Ideal) S512x512 .f32)) (ix2 p j)
      = Cell.hiddenArr (preV m c) (V m c main_arg2) (((cfg0.win 8).blk t).view.emb (ix2 p j))
  have hemb : ((cfg0.win 8).blk t).view.emb (ix2 p j) = ix2 (BlockPoint.rowOf t.val ht p) j := by
    funext a; apply Fin.ext
    match a with
    | ⟨0, _⟩ => show win0_8.index t (0 : Fin 2) * 512 + 1 * p.val = t.val * 512 + p.val; omega
    | ⟨1, _⟩ => show win0_8.index t (1 : Fin 2) * 512 + 1 * j.val = j.val; omega
  rw [hemb, Value.canon8_eq]
  exact BlockPoint.hidden_point (V m c main_arg0) (V m c main_v0) (V m c main_arg1) (V m c main_arg2) (V m c main_v2)
    (V m c main_v4) (V m c main_v3) (V m c main_v5)
    (iblk m c 0 t) (iblk m c 1 t) (iblk m c 3 t) (iblk m c 4 t) (iblk m c 5 t) (iblk m c 7 t) (iblk m c 6 t) (iblk m c 2 t)
    t.val ht (blk_x m c t ht) (blk_h m c t ht) (blk_st m c t ht) (blk_wx m c t) (blk_wh m c t) (blk_wst m c t)
    (blk_b2 m c t) (blk_c m c t ht) p j

/-- An index of the array is in point t's block iff each coordinate is in the block's range on its axis. -/
theorem mem_blk8 (t : Fin cfg0.N) (i : S16384x512.Idx) :
    i ∈ ((cfg0.win 8).blk t).view.set ↔ ∀ a : Fin 2, win0_8.index t a * S512x512.size a ≤ (i a).val
      ∧ (i a).val < win0_8.index t a * S512x512.size a + S512x512.size a := by
  show i ∈ ((View.whole main_v6_0).slice (win0_8.rect t)).set ↔ _
  rw [View.set_slice_whole, Rect.mem_set_unit]
  exact Iff.rfl

/-- Every index of the array lies in the block of the point its row belongs to: row r in the block of point r / 512. -/
theorem cover8 (i : S16384x512.Idx) :
    ∃ t : Fin cfg0.N, (cfg0.win 8).flush t = true ∧ i ∈ ((cfg0.win 8).blk t).view.set := by
  have hi0 : (i 0).val < 16384 := (i 0).isLt
  have hi1 : (i 1).val < 512 := (i 1).isLt
  have hN : (i 0).val / 512 < cfg0.N := by have h32 : cfg0.N = 32 := N_0; omega
  obtain ⟨e0, e1⟩ := idx8 ⟨(i 0).val / 512, hN⟩
  have e0' : win0_8.index ⟨(i 0).val / 512, hN⟩ (0 : Fin 2) = (i 0).val / 512 := e0
  refine ⟨⟨(i 0).val / 512, hN⟩, flush0_8 _, ?_⟩
  rw [mem_blk8]
  intro a
  match a with
  | ⟨0, _⟩ =>
    show win0_8.index ⟨(i 0).val / 512, hN⟩ (0 : Fin 2) * 512 ≤ (i 0).val
      ∧ (i 0).val < win0_8.index ⟨(i 0).val / 512, hN⟩ (0 : Fin 2) * 512 + 512
    omega
  | ⟨1, _⟩ =>
    show win0_8.index ⟨(i 0).val / 512, hN⟩ (1 : Fin 2) * 512 ≤ (i 1).val
      ∧ (i 1).val < win0_8.index ⟨(i 0).val / 512, hN⟩ (1 : Fin 2) * 512 + 512
    omega

/-- THE ARRAY after the run: the new hidden state is the cell's array over the staged arrays. -/
theorem final8 (c : Dev nD) : (dats m 0 c).arrAt 8 cfg0.N = Cell.hiddenArr (preV m c) (V m c main_arg2) :=
  (dats m 0 c).arrAt_eq_of_cover 8 (Cell.hiddenArr (preV m c) (V m c main_arg2)) (fun t _ => flushed8_eq m c t) cover8

/-! ## The new cell state (output window 9) -/

/-- WHAT POINT t WRITES BACK to the new cell state: rows t·512 … t·512 + 511 of the cell's array over the staged arrays. -/
theorem flushed9_eq (c : Dev nD) (t : Fin cfg0.N) :
    (dats m 0 c).flushed 9 t
      = ((cfg0.win 9).blk t).view.read (Elt Ideal) (Cell.cellArr (preV m c) (V m c main_arg2)) := by
  have ht : t.val < 32 := by have h := t.isLt; have hN : cfg0.N = 32 := N_0; omega
  obtain ⟨e0, e1⟩ := idx9 t
  rw [Value.flushed9]
  unfold out0_9
  simp only [View.ld_unit_zero (S := S512x256) hz, View.ld_unit_zero (S := S512x512) hz,
    View.ld_unit_zero (S := S256x2048) hz, View.ld_unit_zero (S := S512x2048) hz, View.ld_unit_zero (S := S1x2048) hz]
  funext y
  obtain ⟨p, j, rfl⟩ : ∃ (p : Fin 512) (j : Fin 512), y = ix2 p j := ⟨y 0, y 1, eq_ix2 y⟩
  show View.canon ([⟨r0_1, k0_pay2 (iblk m c 0 t) (iblk m c 1 t) (iblk m c 3 t) (iblk m c 4 t) (iblk m c 5 t) (iblk m c 7 t)
        (iblk m c 6 t) (iblk m c 2 t)⟩] : List (View.Piece (Elt Ideal) S512x512 .f32)) (ix2 p j)
      = Cell.cellArr (preV m c) (V m c main_arg2) (((cfg0.win 9).blk t).view.emb (ix2 p j))
  have hemb : ((cfg0.win 9).blk t).view.emb (ix2 p j) = ix2 (BlockPoint.rowOf t.val ht p) j := by
    funext a; apply Fin.ext
    match a with
    | ⟨0, _⟩ => show win0_9.index t (0 : Fin 2) * 512 + 1 * p.val = t.val * 512 + p.val; omega
    | ⟨1, _⟩ => show win0_9.index t (1 : Fin 2) * 512 + 1 * j.val = j.val; omega
  rw [hemb, Value.canon9_eq]
  exact BlockPoint.cell_point (V m c main_arg0) (V m c main_v0) (V m c main_arg1) (V m c main_arg2) (V m c main_v2)
    (V m c main_v4) (V m c main_v3) (V m c main_v5)
    (iblk m c 0 t) (iblk m c 1 t) (iblk m c 3 t) (iblk m c 4 t) (iblk m c 5 t) (iblk m c 7 t) (iblk m c 6 t) (iblk m c 2 t)
    t.val ht (blk_x m c t ht) (blk_h m c t ht) (blk_st m c t ht) (blk_wx m c t) (blk_wh m c t) (blk_wst m c t)
    (blk_b2 m c t) (blk_c m c t ht) p j

/-- An index of the array is in point t's block iff each coordinate is in the block's range on its axis. -/
theorem mem_blk9 (t : Fin cfg0.N) (i : S16384x512.Idx) :
    i ∈ ((cfg0.win 9).blk t).view.set ↔ ∀ a : Fin 2, win0_9.index t a * S512x512.size a ≤ (i a).val
      ∧ (i a).val < win0_9.index t a * S512x512.size a + S512x512.size a := by
  show i ∈ ((View.whole main_v6_1).slice (win0_9.rect t)).set ↔ _
  rw [View.set_slice_whole, Rect.mem_set_unit]
  exact Iff.rfl

/-- Every index of the array lies in the block of the point its row belongs to: row r in the block of point r / 512. -/
theorem cover9 (i : S16384x512.Idx) :
    ∃ t : Fin cfg0.N, (cfg0.win 9).flush t = true ∧ i ∈ ((cfg0.win 9).blk t).view.set := by
  have hi0 : (i 0).val < 16384 := (i 0).isLt
  have hi1 : (i 1).val < 512 := (i 1).isLt
  have hN : (i 0).val / 512 < cfg0.N := by have h32 : cfg0.N = 32 := N_0; omega
  obtain ⟨e0, e1⟩ := idx9 ⟨(i 0).val / 512, hN⟩
  have e0' : win0_9.index ⟨(i 0).val / 512, hN⟩ (0 : Fin 2) = (i 0).val / 512 := e0
  refine ⟨⟨(i 0).val / 512, hN⟩, flush0_9 _, ?_⟩
  rw [mem_blk9]
  intro a
  match a with
  | ⟨0, _⟩ =>
    show win0_9.index ⟨(i 0).val / 512, hN⟩ (0 : Fin 2) * 512 ≤ (i 0).val
      ∧ (i 0).val < win0_9.index ⟨(i 0).val / 512, hN⟩ (0 : Fin 2) * 512 + 512
    omega
  | ⟨1, _⟩ =>
    show win0_9.index ⟨(i 0).val / 512, hN⟩ (1 : Fin 2) * 512 ≤ (i 1).val
      ∧ (i 1).val < win0_9.index ⟨(i 0).val / 512, hN⟩ (1 : Fin 2) * 512 + 512
    omega

/-- THE ARRAY after the run: the new cell state is the cell's array over the staged arrays. -/
theorem final9 (c : Dev nD) : (dats m 0 c).arrAt 9 cfg0.N = Cell.cellArr (preV m c) (V m c main_arg2) :=
  (dats m 0 c).arrAt_eq_of_cover 9 (Cell.cellArr (preV m c) (V m c main_arg2)) (fun t _ => flushed9_eq m c t) cover9

/-! ## The run, read -/

/-- The kernel's run with each result array at the cell's formula over the staged arrays, the arguments unchanged. -/
theorem run_staged : θ_run defs (onTc (τ := τ) (main (F := Ideal))) ⟨m, fun _ => 0, ρ⟩ fun r => ∀ c : Dev nD,
      r.2.mem ((c : Thread nD τ).loc main_v6_0) = Cell.hiddenArr (preV m c) (V m c main_arg2)
      ∧ r.2.mem ((c : Thread nD τ).loc main_v6_1) = Cell.cellArr (preV m c) (V m c main_arg2)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final8 m c), (h c).2.1.trans (final9 m c), (h c).2.2⟩)
    (Value.run_blocks m ρ)

end Cert.KernelIdeal.Whole

end
-- ==== Proof.Staged.lean ====
/-
  The arrays the kernel's region finds, and the pre-activation over them.

  Before the region the program lays s beside t into one [16384, 256] array, stacks Ws on Wt into one [256, 2048] matrix,
  changes the float format of Wx, Wh and the stacked matrix (the identity on the extended reals), and views the bias
  vector as a one-row matrix. So column k of [s | t] is column k of s for k < 128 and column k - 128 of t otherwise; row k of
  [Ws ; Wt] is row k of Ws for k < 128 and row k - 128 of Wt otherwise; and entry (0, q) of the bias row is entry q of the bias.
  With these, the fused pre-activation over the staged arrays is the pre-activation of the arguments taken summand by
  summand.
-/
import proofs.«111865_j31585189495421_2_alg».proof.Proof.Gen.KernelIdeal.Frame
import proofs.«111865_j31585189495421_2_alg».proof.Proof.Cell
import Idealize.ShloMosaic.Lib.Pipeline.Value
import Idealize.ShloMosaic.Lib.ValueLayout
import Idealize.ShloMosaic.Lib.StableHlo.Run

noncomputable section

namespace Cert.KernelIdeal.Staged

open Cert.KernelIdeal Cert.KernelIdeal.Gen Idealize.ShloMosaic Idealize.ShloMosaic.TcCoe Idealize.SL.Sem
  Idealize.ShloMosaic.ValueIdx

variable (m : (ℓ : Loc nD τ sig) → Buf (Elt Ideal) ℓ)

/-! ## Each staged array as the host operations leave it -/

/-- [s | t]: s and t laid side by side. -/
theorem V_st (c : Dev nD) : (V m c main_v0 : S16384x256.Idx → EReal) =
    concatenate S16384x256 1 [⟨S16384x128, (m ((c : Thread nD τ).loc main_arg3) : S16384x128.Idx → EReal)⟩,
      ⟨S16384x128, (m ((c : Thread nD τ).loc main_arg4) : S16384x128.Idx → EReal)⟩]
      concatenates_S16384x128_S16384x128_S16384x256_d1 := by
  dsimp only [Gen.V, Gen.hostOps0]; after_results

/-- [Ws ; Wt]: Ws stacked on Wt (the change of float format is the identity). -/
theorem V_wst (c : Dev nD) : (V m c main_v4 : S256x2048.Idx → EReal) =
    concatenate S256x2048 0 [⟨S128x2048, (m ((c : Thread nD τ).loc main_arg8) : S128x2048.Idx → EReal)⟩,
      ⟨S128x2048, (m ((c : Thread nD τ).loc main_arg9) : S128x2048.Idx → EReal)⟩]
      concatenates_S128x2048_S128x2048_S256x2048_d0 := by
  dsimp only [Gen.V, Gen.hostOps0]; after_results; rfl

/-- Wx in the other float format: Wx. -/
theorem V_wx (c : Dev nD) : (V m c main_v2 : S256x2048.Idx → EReal) =
    (m ((c : Thread nD τ).loc main_arg5) : S256x2048.Idx → EReal) := by
  dsimp only [Gen.V, Gen.hostOps0]; after_results; rfl

/-- Wh in the other float format: Wh. -/
theorem V_wh (c : Dev nD) : (V m c main_v3 : S512x2048.Idx → EReal) =
    (m ((c : Thread nD τ).loc main_arg6) : S512x2048.Idx → EReal) := by
  dsimp only [Gen.V, Gen.hostOps0]; after_results; rfl

/-- The bias as a one-row matrix. -/
theorem V_b2 (c : Dev nD) : (V m c main_v5 : S1x2048.Idx → EReal) =
    shapeCast S1x2048 (m ((c : Thread nD τ).loc main_arg7) : S2048.Idx → EReal) shapeCasts_S2048_S1x2048 := by
  dsimp only [Gen.V, Gen.hostOps0]; after_results; rfl

/-! ## Read at an index -/

/-- The first 128 columns of [s | t] are s. -/
theorem st_left (c : Dev nD) (r : Fin 16384) (k : Fin 128) :
    (V m c main_v0 : S16384x256.Idx → EReal) (ix2 r (Fin.castAdd 128 k))
      = (m ((c : Thread nD τ).loc main_arg3) : S16384x128.Idx → EReal) (ix2 r k) := by
  rw [V_st]
  exact concatenate_pair_apply_left (t := S16384x256) (s₁ := S16384x128) (s₂ := S16384x128) (1 : Fin 2) _ _ _
    (ix2 r (Fin.castAdd 128 k) : S16384x256.Idx) rfl (ix2 r k : S16384x128.Idx)
    (fun b => by match b with | ⟨0, _⟩ => rfl | ⟨1, _⟩ => rfl)

/-- The last 128 columns of [s | t] are t. -/
theorem st_right (c : Dev nD) (r : Fin 16384) (k : Fin 128) :
    (V m c main_v0 : S16384x256.Idx → EReal) (ix2 r (Fin.natAdd 128 k))
      = (m ((c : Thread nD τ).loc main_arg4) : S16384x128.Idx → EReal) (ix2 r k) := by
  rw [V_st]
  exact concatenate_pair_apply_right (t := S16384x256) (s₁ := S16384x128) (s₂ := S16384x128) (1 : Fin 2) _ _ _
    (ix2 r (Fin.natAdd 128 k) : S16384x256.Idx) rfl rfl (ix2 r k : S16384x128.Idx)
    (fun b hb => by match b with | ⟨0, _⟩ => rfl | ⟨1, _⟩ => exact absurd rfl hb)
    (by show k.val + 128 = 128 + k.val; omega)

/-- The first 128 rows of [Ws ; Wt] are Ws. -/
theorem wst_top (c : Dev nD) (k : Fin 128) (q : Fin 2048) :
    (V m c main_v4 : S256x2048.Idx → EReal) (ix2 (Fin.castAdd 128 k) q)
      = (m ((c : Thread nD τ).loc main_arg8) : S128x2048.Idx → EReal) (ix2 k q) := by
  rw [V_wst]
  exact concatenate_pair_apply_left (t := S256x2048) (s₁ := S128x2048) (s₂ := S128x2048) (0 : Fin 2) _ _ _
    (ix2 (Fin.castAdd 128 k) q : S256x2048.Idx) rfl (ix2 k q : S128x2048.Idx)
    (fun b => by match b with | ⟨0, _⟩ => rfl | ⟨1, _⟩ => rfl)

/-- The last 128 rows of [Ws ; Wt] are Wt. -/
theorem wst_bottom (c : Dev nD) (k : Fin 128) (q : Fin 2048) :
    (V m c main_v4 : S256x2048.Idx → EReal) (ix2 (Fin.natAdd 128 k) q)
      = (m ((c : Thread nD τ).loc main_arg9) : S128x2048.Idx → EReal) (ix2 k q) := by
  rw [V_wst]
  exact concatenate_pair_apply_right (t := S256x2048) (s₁ := S128x2048) (s₂ := S128x2048) (0 : Fin 2) _ _ _
    (ix2 (Fin.natAdd 128 k) q : S256x2048.Idx) rfl rfl (ix2 k q : S128x2048.Idx)
    (fun b hb => by match b with | ⟨0, _⟩ => exact absurd rfl hb | ⟨1, _⟩ => rfl)
    (by show k.val + 128 = 128 + k.val; omega)

/-- Entry (0, q) of the bias row is entry q of the bias. -/
theorem b2_eq (c : Dev nD) (q : Fin 2048) :
    (V m c main_v5 : S1x2048.Idx → EReal) (ix2 (0 : Fin 1) q)
      = (m ((c : Thread nD τ).loc main_arg7) : S2048.Idx → EReal) (ix1 q) := by
  rw [V_b2]
  exact shapeCast_a_1a_apply _ _ (0 : Fin 1) q

/-! ## The pre-activation over the staged arrays -/

/-- The fused pre-activation of the arrays the region finds is the summed pre-activation of the program's arguments. -/
theorem preFused_staged (c : Dev nD) :
    Cell.preFused (V m c main_arg0) (V m c main_v0) (V m c main_arg1) (V m c main_v2) (V m c main_v4) (V m c main_v3)
        (V m c main_v5)
      = Cell.preSummed (m ((c : Thread nD τ).loc main_arg0)) (m ((c : Thread nD τ).loc main_arg1))
          (m ((c : Thread nD τ).loc main_arg3)) (m ((c : Thread nD τ).loc main_arg4))
          (m ((c : Thread nD τ).loc main_arg5)) (m ((c : Thread nD τ).loc main_arg6))
          (m ((c : Thread nD τ).loc main_arg7)) (m ((c : Thread nD τ).loc main_arg8))
          (m ((c : Thread nD τ).loc main_arg9)) := by
  funext r q
  rw [V_main_arg0 m c, V_main_arg1 m c, V_wx m c, V_wh m c]
  exact Cell.preFused_eq_preSummed _ _ _ _ _ _ _ _ _ _ _ _ (st_left m c) (st_right m c) (wst_top m c) (wst_bottom m c)
    (b2_eq m c) r q

end Cert.KernelIdeal.Staged

end
-- ==== Proof.RefArray.lean ====
/-
  The reference computes the cell over the pre-activation taken summand by summand.

  Its program forms x·Wx, h·Wh + b (the bias broadcast over the rows), s·Ws and t·Wt as four host contractions and adds
  them in that order; slices the result into the four gate groups at columns 0, 512, 1024 and 1536; spells each logistic
  gate as 1 / (1 + e^(-z)) with the single-precision pattern of 1.0; and combines them into the new cell and hidden states.
  Read index by index, its second result is the new cell state and its first the new hidden state.
-/
import proofs.«111865_j31585189495421_2_alg».proof.Proof.Gen.ReferenceIdeal.Read
import proofs.«111865_j31585189495421_2_alg».proof.Proof.Cell

noncomputable section

open scoped BigOperators

namespace Cert.ReferenceIdeal.Whole

open Cert.ReferenceIdeal Cert.ReferenceIdeal.Read Idealize.ShloMosaic Idealize.ShloMosaic.ValueIdx

section
variable (x0 : (⟨S16384x256, .f32⟩ : BufTy).Contents (Elt Ideal)) (x1 x2 : (⟨S16384x512, .f32⟩ : BufTy).Contents (Elt Ideal))
  (x3 x4 : (⟨S16384x128, .f32⟩ : BufTy).Contents (Elt Ideal)) (x5 : (⟨S256x2048, .f32⟩ : BufTy).Contents (Elt Ideal))
  (x6 : (⟨S512x2048, .f32⟩ : BufTy).Contents (Elt Ideal)) (x7 : (⟨S2048, .f32⟩ : BufTy).Contents (Elt Ideal))
  (x8 x9 : (⟨S128x2048, .f32⟩ : BufTy).Contents (Elt Ideal))

/-- The summed pre-activation of the reference's arguments. -/
abbrev pre : Fin 16384 → Fin 2048 → EReal := Cell.preSummed x0 x1 x3 x4 x5 x6 x7 x8 x9

/-- The reference's [16384, 2048] sum of projections at (r, q). -/
theorem pre_eq (r : Fin 16384) (q : Fin 2048) :
    val_main_v9 (F := Ideal) x0 x1 x3 x4 x5 x6 x7 x8 x9 (ix2 r q) = pre x0 x1 x3 x4 x5 x6 x7 x8 x9 r q := by
  have el0 : ∀ k, lidx_main_v0 (ix2 r q) k = ix2 r k := fun k => funext fun a => by
    match a with | ⟨0, _⟩ => rfl | ⟨1, _⟩ => rfl
  have er0 : ∀ k, ridx_main_v0 (ix2 r q) k = ix2 k q := fun k => funext fun a => by
    match a with | ⟨0, _⟩ => rfl | ⟨1, _⟩ => rfl
  have el1 : ∀ k, lidx_main_v1 (ix2 r q) k = ix2 r k := fun k => funext fun a => by
    match a with | ⟨0, _⟩ => rfl | ⟨1, _⟩ => rfl
  have er1 : ∀ k, ridx_main_v1 (ix2 r q) k = ix2 k q := fun k => funext fun a => by
    match a with | ⟨0, _⟩ => rfl | ⟨1, _⟩ => rfl
  have el6 : ∀ k, lidx_main_v6 (ix2 r q) k = ix2 r k := fun k => funext fun a => by
    match a with | ⟨0, _⟩ => rfl | ⟨1, _⟩ => rfl
  have er6 : ∀ k, ridx_main_v6 (ix2 r q) k = ix2 k q := fun k => funext fun a => by
    match a with | ⟨0, _⟩ => rfl | ⟨1, _⟩ => rfl
  have el8 : ∀ k, lidx_main_v8 (ix2 r q) k = ix2 r k := fun k => funext fun a => by
    match a with | ⟨0, _⟩ => rfl | ⟨1, _⟩ => rfl
  have er8 : ∀ k, ridx_main_v8 (ix2 r q) k = ix2 k q := fun k => funext fun a => by
    match a with | ⟨0, _⟩ => rfl | ⟨1, _⟩ => rfl
  have eb : idx_main_v2 (idx_main_v3 (ix2 r q)) = ix1 q := funext fun a => by
    match a with | ⟨0, _⟩ => rfl
  rw [val_main_v9_apply, val_main_v7_apply, val_main_v5_apply, val_main_v4_apply, val_main_v0_apply, val_main_v1_apply,
    val_main_v3_apply, val_main_v2_apply, val_main_v6_apply, val_main_v8_apply]
  simp only [el0, er0, el1, er1, el6, er6, el8, er8, eb]
  rfl

/-- The input gate at (r, j): the logistic of the pre-activation's column j. -/
theorem gateI_eq (r : Fin 16384) (j : Fin 512) :
    val_main_v16 (F := Ideal) x0 x1 x3 x4 x5 x6 x7 x8 x9 (ix2 r j)
      = Ideal.logistic (pre x0 x1 x3 x4 x5 x6 x7 x8 x9 r (Cell.colI j)) := by
  have e : idx_main_v10 (ix2 r j) = ix2 r (Cell.colI j) := funext fun a => by
    match a with | ⟨0, _⟩ => rfl | ⟨1, _⟩ => rfl
  rw [val_main_v16_apply, val_main_v15_apply, val_main_cst_0_apply, val_main_v14_apply, val_main_v13_apply,
    val_main_cst_apply, val_main_v12_apply, val_main_v11_apply, val_main_v10_apply, e, pre_eq]
  exact Cell.logistic_spelt _

/-- The forget gate at (r, j): the logistic of the pre-activation's column 512 + j. -/
theorem gateF_eq (r : Fin 16384) (j : Fin 512) :
    val_main_v23 (F := Ideal) x0 x1 x3 x4 x5 x6 x7 x8 x9 (ix2 r j)
      = Ideal.logistic (pre x0 x1 x3 x4 x5 x6 x7 x8 x9 r (Cell.colF j)) := by
  have e : idx_main_v17 (ix2 r j) = ix2 r (Cell.colF j) := funext fun a => by
    match a with
    | ⟨0, _⟩ => rfl
    | ⟨1, _⟩ => exact Fin.ext (by show 512 + j.val = j.val + 512; omega)
  rw [val_main_v23_apply, val_main_v22_apply, val_main_cst_2_apply, val_main_v21_apply, val_main_v20_apply,
    val_main_cst_1_apply, val_main_v19_apply, val_main_v18_apply, val_main_v17_apply, e, pre_eq]
  exact Cell.logistic_spelt _

/-- The output gate at (r, j): the logistic of the pre-activation's column 1024 + j. -/
theorem gateO_eq (r : Fin 16384) (j : Fin 512) :
    val_main_v30 (F := Ideal) x0 x1 x3 x4 x5 x6 x7 x8 x9 (ix2 r j)
      = Ideal.logistic (pre x0 x1 x3 x4 x5 x6 x7 x8 x9 r (Cell.colO j)) := by
  have e : idx_main_v24 (ix2 r j) = ix2 r (Cell.colO j) := funext fun a => by
    match a with
    | ⟨0, _⟩ => rfl
    | ⟨1, _⟩ => exact Fin.ext (by show 1024 + j.val = j.val + 1024; omega)
  rw [val_main_v30_apply, val_main_v29_apply, val_main_cst_4_apply, val_main_v28_apply, val_main_v27_apply,
    val_main_cst_3_apply, val_main_v26_apply, val_main_v25_apply, val_main_v24_apply, e, pre_eq]
  exact Cell.logistic_spelt _

/-- The candidate at (r, j): tanh of the pre-activation's column 1536 + j. -/
theorem cand_eq (r : Fin 16384) (j : Fin 512) :
    val_main_v32 (F := Ideal) x0 x1 x3 x4 x5 x6 x7 x8 x9 (ix2 r j)
      = Ideal.tanh (pre x0 x1 x3 x4 x5 x6 x7 x8 x9 r (Cell.colG j)) := by
  have e : idx_main_v31 (ix2 r j) = ix2 r (Cell.colG j) := funext fun a => by
    match a with
    | ⟨0, _⟩ => rfl
    | ⟨1, _⟩ => exact Fin.ext (by show 1536 + j.val = j.val + 1536; omega)
  rw [val_main_v32_apply, val_main_v31_apply, e, pre_eq]
  rfl

/-- The reference's second result, the new cell state, at (r, j). -/
theorem cell_eq (r : Fin 16384) (j : Fin 512) :
    val_main_v35 (F := Ideal) x0 x1 x2 x3 x4 x5 x6 x7 x8 x9 (ix2 r j)
      = Cell.cellAt (pre x0 x1 x3 x4 x5 x6 x7 x8 x9) x2 r j := by
  rw [val_main_v35_apply, val_main_v33_apply, val_main_v34_apply, gateF_eq, gateI_eq, cand_eq]
  rfl

/-- The reference's first result, the new hidden state, at (r, j). -/
theorem hidden_eq (r : Fin 16384) (j : Fin 512) :
    val_main_v37 (F := Ideal) x0 x1 x2 x3 x4 x5 x6 x7 x8 x9 (ix2 r j)
      = Cell.hiddenAt (pre x0 x1 x3 x4 x5 x6 x7 x8 x9) x2 r j := by
  rw [val_main_v37_apply, val_main_v36_apply, gateO_eq, cell_eq]
  rfl

/-- The new cell state as an array. -/
theorem cellArr_eq :
    val_main_v35 (F := Ideal) x0 x1 x2 x3 x4 x5 x6 x7 x8 x9 = Cell.cellArr (pre x0 x1 x3 x4 x5 x6 x7 x8 x9) x2 := by
  funext i
  obtain ⟨r, j, rfl⟩ : ∃ (r : Fin 16384) (j : Fin 512), i = ix2 r j := ⟨i 0, i 1, eq_ix2 i⟩
  exact cell_eq x0 x1 x2 x3 x4 x5 x6 x7 x8 x9 r j

/-- The new hidden state as an array. -/
theorem hiddenArr_eq :
    val_main_v37 (F := Ideal) x0 x1 x2 x3 x4 x5 x6 x7 x8 x9 = Cell.hiddenArr (pre x0 x1 x3 x4 x5 x6 x7 x8 x9) x2 := by
  funext i
  obtain ⟨r, j, rfl⟩ : ∃ (r : Fin 16384) (j : Fin 512), i = ix2 r j := ⟨i 0, i 1, eq_ix2 i⟩
  exact hidden_eq x0 x1 x2 x3 x4 x5 x6 x7 x8 x9 r j

end

end Cert.ReferenceIdeal.Whole

end
-- ==== Proof.lean ====
/-
  A fused LSTM cell kernel against its plain reference, on the extended reals.

  Both programs take x [16384, 256], h and c [16384, 512], s and t [16384, 128], weights Wx [256, 2048], Wh [512, 2048],
  Ws and Wt [128, 2048] and a bias b [2048], and return the new hidden state and the new cell state, both [16384, 512]:
  with pre = the [16384, 2048] pre-activation and σ the logistic function,
      c' = σ(pre[:, 512:1024]) · c + σ(pre[:, 0:512]) · tanh(pre[:, 1536:2048]),   h' = tanh(σ(pre[:, 1024:1536]) · c').

  The reference takes pre = x·Wx + (h·Wh + b) + s·Ws + t·Wt and spells σ(z) as 1 / (1 + e^(-z)). The kernel lays s beside t
  and stacks Ws on Wt before its region, and each of its 32 grid points computes, for 512 rows,
  pre = x·Wx + h·Wh + [s | t]·[Ws ; Wt] + b with σ as one operation. On the extended reals a change of float format is the
  identity, a matrix product into a zero accumulator is the sum over the contraction coordinate, the logistic operation
  is 1 / (1 + e^(-z)) by definition, a contraction over the 256 coordinates of [s | t] splits into the two over 128, and
  addition is commutative and associative. So the two pre-activations agree at every index for all extended-real
  inputs, and with them both results; the precondition that the inputs are finite is not used.

  Each program's frame (it terminates without a fault and leaves its arguments unchanged) is the generated one; the
  reference's is its generated run with the two results dropped. The idealized kernel is the kernel's own text read on
  the extended reals with no operation rewritten, so the conjunct relating the two is `True`.
-/
import proofs.«111865_j31585189495421_2_alg».proof.Defs
import proofs.«111865_j31585189495421_2_alg».proof.Proof.Gen.Kernel
import proofs.«111865_j31585189495421_2_alg».proof.Proof.Gen.Kernel.Frame
import proofs.«111865_j31585189495421_2_alg».proof.Proof.Gen.KernelIdeal
import proofs.«111865_j31585189495421_2_alg».proof.Proof.Gen.KernelIdeal.Frame
import proofs.«111865_j31585189495421_2_alg».proof.Proof.Gen.KernelIdeal.Value
import proofs.«111865_j31585189495421_2_alg».proof.Proof.Gen.ReferenceIdeal
import proofs.«111865_j31585189495421_2_alg».proof.Proof.Gen.ReferenceIdeal.Run
import proofs.«111865_j31585189495421_2_alg».proof.Proof.Gen.ReferenceIdeal.Read
import proofs.«111865_j31585189495421_2_alg».proof.Proof.Gen.Pre_finite_inputs
import proofs.«111865_j31585189495421_2_alg».proof.Proof.Cell
import proofs.«111865_j31585189495421_2_alg».proof.Proof.KernelArray
import proofs.«111865_j31585189495421_2_alg».proof.Proof.Staged
import proofs.«111865_j31585189495421_2_alg».proof.Proof.RefArray
import Idealize.ShloMosaic.Adequacy
import Idealize.ShloMosaic.Init

noncomputable section

namespace Cert.Proof

open Idealize.ShloMosaic Idealize.ShloMosaic.TcCoe Idealize.SL.Sem

/-! ## The two results as functions of the kernel program's argument arrays -/

/-- The summed pre-activation of the argument arrays in a memory of the kernel's program. -/
abbrev preOf (m : (ℓ : Loc Cert.KernelIdeal.nD Cert.KernelIdeal.τ Cert.KernelIdeal.sig) → Buf (Elt Ideal) ℓ)
    (c : Dev Cert.KernelIdeal.nD) : Fin 16384 → Fin 2048 → EReal :=
  Cert.Cell.preSummed
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))

/-- The kernel's new hidden state is the cell's over the summed pre-activation of its arguments. -/
theorem kernel_hidden (m : (ℓ : Loc Cert.KernelIdeal.nD Cert.KernelIdeal.τ Cert.KernelIdeal.sig) → Buf (Elt Ideal) ℓ)
    (c : Dev Cert.KernelIdeal.nD) :
    Cert.Cell.hiddenArr (Cert.KernelIdeal.Whole.preV m c) (Cert.KernelIdeal.Gen.V m c Cert.KernelIdeal.main_arg2)
      = Cert.Cell.hiddenArr (preOf m c) (m ((c.tc : Thread Cert.KernelIdeal.nD Cert.KernelIdeal.τ).loc Cert.KernelIdeal.main_arg2)) :=
  congrArg₂ Cert.Cell.hiddenArr (Cert.KernelIdeal.Staged.preFused_staged m c) (Cert.KernelIdeal.Gen.V_main_arg2 m c)

/-- The kernel's new cell state is the cell's over the summed pre-activation of its arguments. -/
theorem kernel_cell (m : (ℓ : Loc Cert.KernelIdeal.nD Cert.KernelIdeal.τ Cert.KernelIdeal.sig) → Buf (Elt Ideal) ℓ)
    (c : Dev Cert.KernelIdeal.nD) :
    Cert.Cell.cellArr (Cert.KernelIdeal.Whole.preV m c) (Cert.KernelIdeal.Gen.V m c Cert.KernelIdeal.main_arg2)
      = Cert.Cell.cellArr (preOf m c) (m ((c.tc : Thread Cert.KernelIdeal.nD Cert.KernelIdeal.τ).loc Cert.KernelIdeal.main_arg2)) :=
  congrArg₂ Cert.Cell.cellArr (Cert.KernelIdeal.Staged.preFused_staged m c) (Cert.KernelIdeal.Gen.V_main_arg2 m c)

/-! ## The claims -/

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the new hidden state and the new cell state of one and the same cell. -/
theorem algebraic : Cert.algebraic_KernelIdeal_ReferenceIdeal := by
  intro m ρ m' ρ' _ hagree
  refine ⟨fun c => Cert.Cell.hiddenArr (preOf m c)
      (m ((c.tc : Thread Cert.KernelIdeal.nD Cert.KernelIdeal.τ).loc Cert.KernelIdeal.main_arg2)),
    fun c => Cert.Cell.cellArr (preOf m c)
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (kernel_hidden m c), (h c).2.1.trans (kernel_cell m c), (h c).2.2⟩)
      (Cert.KernelIdeal.Whole.run_staged m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v37_eq, Cert.ReferenceIdeal.Whole.hiddenArr_eq]
      obtain ⟨a0, a1, a2, a3, a4, a5, a6, a7, a8, a9⟩ := hagree c
      rw [a0, a1, a2, a3, a4, a5, a6, a7, a8, a9]
    · rw [Cert.ReferenceIdeal.Read.val_main_v35_eq, Cert.ReferenceIdeal.Whole.cellArr_eq]
      obtain ⟨a0, a1, a2, a3, a4, a5, a6, a7, a8, a9⟩ := hagree c
      rw [a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
